-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x256x256 : Shape := ⟨4, ![32, 16, 256, 256]⟩
abbrev S65536 : Shape := ⟨1, ![65536]⟩
abbrev S_ : Shape := ⟨0, ![]⟩

class Facts : Prop where
  bcast_S_S32x16x256x256 : S_.BroadcastsInDim S32x16x256x256 (![] : Fin 0 → Fin S32x16x256x256.rank)
  reducesTo_S32x16x256x256_S_d0_1_2_3 : S32x16x256x256.ReducesTo [0, 1, 2, 3] S_
  h_S_ : 0 < S_.numel
  bcast_S_S65536 : S_.BroadcastsInDim S65536 (![] : Fin 0 → Fin S65536.rank)
  reducesTo_S65536_S_d0 : S65536.ReducesTo [0] S_

variable [Facts]

def fn_part1 {F : FTy → Type} [FloatOps F] (main_v13 : IVec S_ 1) (main_v16 : IVec S65536 1) : IVec S_ 1 :=
  let main_c_5 : IVec S_ 1 := constantI S_ 1 1#1
  let main_v17 : IVec S_ 1 := (fun x v => Host.reduce IntOp.andi x v reducesTo_S65536_S_d0 h_S_) main_v16 main_c_5
  let main_v18 : IVec S_ 1 := andi main_v13 main_v17
  main_v18

def fn {F : FTy → Type} [FloatOps F] (main_arg0 : FVec F S32x16x256x256 .f32) (main_arg1 : FVec F S32x16x256x256 .f32) (main_arg2 : FVec F S65536 .f32) (main_arg3 : FVec F S65536 .f32) : IVec S_ 1 :=
  let main_v0 : FVec F S32x16x256x256 .f32 := Host.absf main_arg0
  let main_cst : FVec F S_ .f32 := constant S_ .f32 0x7F800000#32
  let main_v1 : FVec F S32x16x256x256 .f32 := broadcastInDim S32x16x256x256 ![] bcast_S_S32x16x256x256 main_cst
  let main_v2 : IVec S32x16x256x256 1 := cmpf .olt main_v0 main_v1
  let main_c : IVec S_ 1 := constantI S_ 1 1#1
  let main_v3 : IVec S_ 1 := (fun x v => Host.reduce IntOp.andi x v reducesTo_S32x16x256x256_S_d0_1_2_3 h_S_) main_v2 main_c
  let main_v4 : FVec F S32x16x256x256 .f32 := Host.absf main_arg1
  let main_cst_0 : FVec F S_ .f32 := constant S_ .f32 0x7F800000#32
  let main_v5 : FVec F S32x16x256x256 .f32 := broadcastInDim S32x16x256x256 ![] bcast_S_S32x16x256x256 main_cst_0
  let main_v6 : IVec S32x16x256x256 1 := cmpf .olt main_v4 main_v5
  let main_c_1 : IVec S_ 1 := constantI S_ 1 1#1
  let main_v7 : IVec S_ 1 := (fun x v => Host.reduce IntOp.andi x v reducesTo_S32x16x256x256_S_d0_1_2_3 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_v14 : FVec F S65536 .f32 := Host.absf main_arg3
  let main_cst_4 : FVec F S_ .f32 := constant S_ .f32 0x7F800000#32
  let main_v15 : FVec F S65536 .f32 := broadcastInDim S65536 ![] bcast_S_S65536 main_cst_4
  let main_v16 : IVec S65536 1 := cmpf .olt main_v14 main_v15
  fn_part1 (F := F) main_v13 main_v16
-- ==== Kernel.lean ====
abbrev S32x16x256x256 : Shape := ⟨4, ![32, 16, 256, 256]⟩
abbrev S65536 : Shape := ⟨1, ![65536]⟩
abbrev S512x256x256 : Shape := ⟨3, ![512, 256, 256]⟩
abbrev S256x256 : Shape := ⟨2, ![256, 256]⟩
abbrev S32x256x256 : Shape := ⟨3, ![32, 256, 256]⟩
abbrev S1x256x256 : Shape := ⟨3, ![1, 256, 256]⟩

abbrev nBuf : Space → Nat
  | .hbm => 12
  | .vmem => 10
  | .smem => 0
  | _ => 0

abbrev bufTy : (tb : Table) → Fin (tcTables nBuf tb) → BufTy
  | .hbm, ⟨0, _⟩ => ⟨S32x16x256x256, .f32⟩
  | .hbm, ⟨1, _⟩ => ⟨S32x16x256x256, .f32⟩
  | .hbm, ⟨2, _⟩ => ⟨S65536, .f32⟩
  | .hbm, ⟨3, _⟩ => ⟨S65536, .f32⟩
  | .hbm, ⟨4, _⟩ => ⟨S512x256x256, .f32⟩
  | .hbm, ⟨5, _⟩ => ⟨S256x256, .f32⟩
  | .hbm, ⟨6, _⟩ => ⟨S512x256x256, .f32⟩
  | .hbm, ⟨7, _⟩ => ⟨S32x16x256x256, .f32⟩
  | .hbm, ⟨8, _⟩ => ⟨S512x256x256, .f32⟩
  | .hbm, ⟨9, _⟩ => ⟨S256x256, .f32⟩
  | .hbm, ⟨10, _⟩ => ⟨S512x256x256, .f32⟩
  | .hbm, ⟨11, _⟩ => ⟨S32x16x256x256, .f32⟩
  | .local _ .vmem, ⟨0, _⟩ => ⟨S32x256x256, .f32⟩
  | .local _ .vmem, ⟨1, _⟩ => ⟨S32x256x256, .f32⟩
  | .local _ .vmem, ⟨2, _⟩ => ⟨S256x256, .f32⟩
  | .local _ .vmem, ⟨3, _⟩ => ⟨S32x256x256, .f32⟩
  | .local _ .vmem, ⟨4, _⟩ => ⟨S32x256x256, .f32⟩
  | .local _ .vmem, ⟨5, _⟩ => ⟨S32x256x256, .f32⟩
  | .local _ .vmem, ⟨6, _⟩ => ⟨S32x256x256, .f32⟩
  | .local _ .vmem, ⟨7, _⟩ => ⟨S256x256, .f32⟩
  | .local _ .vmem, ⟨8, _⟩ => ⟨S32x256x256, .f32⟩
  | .local _ .vmem, ⟨9, _⟩ => ⟨S32x256x256, .f32⟩
  | _, _ => ⟨S32x16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S32x16x256x256_S512x256x256 : S32x16x256x256.ShapeCasts S512x256x256
  shapeCasts_S65536_S256x256 : S65536.ShapeCasts S256x256
  inb_S32x256x256_S32x256x256_0_0_0 : ∀ a, (![0, 0, 0] : Fin 3 → Nat) a + S32x256x256.size a ≤ S32x256x256.size a
  h_S32x256x256 : 0 < S32x256x256.numel
  shapeCasts_S32x256x256_S32x256x256 : S32x256x256.ShapeCasts S32x256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256x256_S1x256x256 : S256x256.ShapeCasts S1x256x256
  broadcasts_S1x256x256_S32x256x256 : S1x256x256.Broadcasts S32x256x256
  shapeCasts_S512x256x256_S32x16x256x256 : S512x256x256.ShapeCasts S32x16x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x256.size a ≤ S512x256x256.size a
  hwx0_0 : ∀ i : grid0.Coords, EltTy.bits .f32 = 32 ∨ (Rect.block (s := S512x256x256) S32x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256x256.size a ≤ S512x256x256.size a
  hwx0_2 : ∀ i : grid0.Coords, EltTy.bits .f32 = 32 ∨ (Rect.block (s := S512x256x256) S32x256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x256x256.size a ≤ S512x256x256.size a
  hwx1_0 : ∀ i : grid1.Coords, EltTy.bits .f32 = 32 ∨ (Rect.block (s := S512x256x256) S32x256x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x256x256.size a ≤ S512x256x256.size a
  hwx1_2 : ∀ i : grid1.Coords, EltTy.bits .f32 = 32 ∨ (Rect.block (s := S512x256x256) S32x256x256.size (cc1_transform_2 i) (hinb1_2 i)).WholeWords (EltTy.packing .f32)

variable [Facts₀]

abbrev win0_0 : Pipeline.Window sig grid0 :=
  Pipeline.Window.ofSpec (Memref.whole main_v0) S32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S32x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S32x256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x16x256x256 : Shape := ⟨4, ![32, 16, 256, 256]⟩
abbrev S65536 : Shape := ⟨1, ![65536]⟩
abbrev S256x256 : Shape := ⟨2, ![256, 256]⟩
abbrev S1x1x256x256 : Shape := ⟨4, ![1, 1, 256, 256]⟩

abbrev nBuf : Space → Nat
  | .hbm => 14
  | .vmem => 0
  | .smem => 0
  | _ => 0

abbrev bufTy : (tb : Table) → Fin (tcTables nBuf tb) → BufTy
  | .hbm, ⟨0, _⟩ => ⟨S32x16x256x256, .f32⟩
  | .hbm, ⟨1, _⟩ => ⟨S32x16x256x256, .f32⟩
  | .hbm, ⟨2, _⟩ => ⟨S65536, .f32⟩
  | .hbm, ⟨3, _⟩ => ⟨S65536, .f32⟩
  | .hbm, ⟨4, _⟩ => ⟨S65536, .f32⟩
  | .hbm, ⟨5, _⟩ => ⟨S256x256, .f32⟩
  | .hbm, ⟨6, _⟩ => ⟨S65536, .f32⟩
  | .hbm, ⟨7, _⟩ => ⟨S256x256, .f32⟩
  | .hbm, ⟨8, _⟩ => ⟨S1x1x256x256, .f32⟩
  | .hbm, ⟨9, _⟩ => ⟨S32x16x256x256, .f32⟩
  | .hbm, ⟨10, _⟩ => ⟨S32x16x256x256, .f32⟩
  | .hbm, ⟨11, _⟩ => ⟨S1x1x256x256, .f32⟩
  | .hbm, ⟨12, _⟩ => ⟨S32x16x256x256, .f32⟩
  | .hbm, ⟨13, _⟩ => ⟨S32x16x256x256, .f32⟩
  | _, _ => ⟨S32x16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S65536_S256x256 : S65536.ShapeCasts S256x256
  bcast_S256x256_S1x1x256x256_2_3 : S256x256.BroadcastsInDim S1x1x256x256 (![2, 3] : Fin 2 → Fin S1x1x256x256.rank)
  bcast_S1x1x256x256_S32x16x256x256_0_1_2_3 : S1x1x256x256.BroadcastsInDim S32x16x256x256 (![0, 1, 2, 3] : Fin 4 → Fin S32x16x256x256.rank)

variable [Facts₀]

class Facts : Prop extends Facts₀ where

variable [Facts]
-- ==== Proof.ScaleSpec.lean ====
/-
  What the program computes, and the layout steps on the way, at the ideal instance (floats are extended reals).

  Each plane `x` of shape [32, 16, 256, 256] is multiplied, entry by entry, by the exponential of a table `β` of
  256 · 256 numbers given flat:   result (b, c, h, w) = x (b, c, h, w) · exp (β (256 · h + w)).
  The kernel does it on the stacked plane [512, 256, 256] (the two leading axes merged, row 16 · b + c) with the table
  viewed as [256, 256], thirty-two stacked rows at a time.  Three facts join the two descriptions:
    * one block's arithmetic, read at an index — the table's exponential, given a unit leading axis and repeated along
      it, times the block;
    * merging the leading axes, scaling the stack, and splitting the axes again is the scaling of the plane itself,
      because a reshape keeps row-major positions and 256 · h + w is the position of (h, w) in the table;
    * no law of arithmetic is used beyond reading both sides at an index: the two products have the same factors.
-/
import Idealize.ShloMosaic.PureOps.Ideal
import Idealize.ShloMosaic.Lib.ValueIdx
import Idealize.ShloMosaic.Lib.ValueLayout
import Idealize.ShloMosaic.Lib.Pipeline.Value

noncomputable section

namespace Cert.ScaleSpec

open Idealize.ShloMosaic Idealize.ShloMosaic.ValueIdx

/-- The plane: [32, 16, 256, 256]. -/
abbrev Plane : Shape := ⟨4, ![32, 16, 256, 256]⟩
/-- The plane with its two leading axes merged: [512, 256, 256]. -/
abbrev Stack : Shape := ⟨3, ![512, 256, 256]⟩
/-- Thirty-two rows of the stack: [32, 256, 256]. -/
abbrev Slab : Shape := ⟨3, ![32, 256, 256]⟩
/-- The table as a matrix, as one slab row, and flat. -/
abbrev Table : Shape := ⟨2, ![256, 256]⟩
abbrev TableRow : Shape := ⟨3, ![1, 256, 256]⟩
abbrev Flat : Shape := ⟨1, ![65536]⟩

/-- The all-zero offsets of a whole-buffer access, at ranks 3 and 2, as constant functions. -/
theorem origin3 : (![0, 0, 0] : Fin 3 → Nat) = fun _ => 0 := funext fun a => by fin_cases a <;> rfl
theorem origin2 : (![0, 0] : Fin 2 → Nat) = fun _ => 0 := funext fun a => by fin_cases a <;> rfl

/-- The flat position of entry `(h, w)` of the table. -/
abbrev flatPos (h w : Fin 256) : Fin 65536 := ⟨h.val * 256 + w.val, by have := h.isLt; have := w.isLt; omega⟩

/-- The stacked row of plane entry `(b, c)`. -/
abbrev stackRow (b : Fin 32) (c : Fin 16) : Fin 512 := ⟨b.val * 16 + c.val, by have := b.isLt; have := c.isLt; omega⟩

/-- THE RESULT: the plane scaled entry by entry by the exponential of the flat table. -/
def scaled (x : FVec Ideal Plane .f32) (β : FVec Ideal Flat .f32) : FVec Ideal Plane .f32 :=
  fun i => x i * Ideal.exp (β (ix1 (flatPos (i 2) (i 3))))

/-- The same on the stack, the table a matrix: what one scaling region leaves in its output array. -/
def scaledStack (x : FVec Ideal Stack .f32) (β : FVec Ideal Table .f32) : FVec Ideal Stack .f32 :=
  fun i => x i * Ideal.exp (β (ix2 (i 1) (i 2)))

/-- ONE BLOCK'S ARITHMETIC at an index: the slab times the table's exponential, the latter given a unit leading axis and
    repeated along the slab's thirty-two rows, is at `(r, h, w)` the slab's entry times `exp` of the table's `(h, w)`. -/
theorem slab_scale_apply (x : FVec Ideal Slab .f32) (β : FVec Ideal Table .f32)
    (h₁ : Slab.ShapeCasts Slab) (h₂ : Table.ShapeCasts Table) (h₃ : Table.ShapeCasts TableRow) (h₄ : TableRow.Broadcasts Slab)
    (j : Slab.Idx) :
    mulf (shapeCast Slab x h₁) (broadcastTo Slab (shapeCast TableRow (exp (shapeCast Table β h₂)) h₃) h₄) j
      = x j * Ideal.exp (β (ix2 (j 1) (j 2))) := by
  rw [shapeCast_self, shapeCast_self]
  show x j * broadcastTo Slab (shapeCast TableRow (exp β) h₃) h₄ j = _
  congr 1
  refine (broadcastTo_apply _ h₄ j (ix3 (0 : Fin 1) (j 1) (j 2)) fun a => ?_).trans ?_
  · match a with
    | ⟨0, _⟩ => show 0 = if (1 : Nat) = 1 then 0 else _; rw [if_pos rfl]
    | ⟨1, _⟩ => show (j 1).val = if (256 : Nat) = 1 then 0 else (j 1).val; rw [if_neg (by decide)]
    | ⟨2, _⟩ => show (j 2).val = if (256 : Nat) = 1 then 0 else (j 2).val; rw [if_neg (by decide)]
  · exact shapeCast_ab_1ab_apply (exp β) h₃ 0 (j 1) (j 2)

/-- MERGE, SCALE, SPLIT: the plane with its leading axes merged and the flat table viewed as a matrix, scaled on the
    stack and split back, is the scaled plane.  A reshape keeps row-major positions: `(b, c, h, w)` and
    `(16 b + c, h, w)` are both at `((16 b + c) · 256 + h) · 256 + w`, and `(h, w)` is at `256 h + w`. -/
theorem split_scaledStack_merge (x : FVec Ideal Plane .f32) (β : FVec Ideal Flat .f32)
    (hm : Plane.ShapeCasts Stack) (ht : Flat.ShapeCasts Table) (hs : Stack.ShapeCasts Plane) :
    shapeCast Plane (scaledStack (shapeCast Stack x hm) (shapeCast Table β ht)) hs = scaled x β := by
  funext i
  have hpos : (Stack.rowMajor (ix3 (stackRow (i 0) (i 1)) (i 2) (i 3))).val = (Plane.rowMajor i).val := by
    rw [Shape.rowMajor_val_three, Shape.rowMajor_val_four]; rfl
  have htab : (Flat.rowMajor (ix1 (flatPos (i 2) (i 3)))).val = (Table.rowMajor (ix2 (i 2) (i 3))).val := by
    rw [Shape.rowMajor_val_one, Shape.rowMajor_val_two]; rfl
  refine (shapeCast_apply _ hs i (ix3 (stackRow (i 0) (i 1)) (i 2) (i 3)) hpos).trans ?_
  show shapeCast Stack x hm (ix3 (stackRow (i 0) (i 1)) (i 2) (i 3)) * Ideal.exp (shapeCast Table β ht (ix2 (i 2) (i 3)))
    = x i * Ideal.exp (β (ix1 (flatPos (i 2) (i 3))))
  rw [shapeCast_apply x hm _ i hpos.symm, shapeCast_apply β ht _ _ htab]

end Cert.ScaleSpec

end
-- ==== Proof.ScaleRun.lean ====
/-
  The whole program's run, with its results named.

  The program is five segments: two host reshapes, the first scaling region, three host reshapes, the second scaling
  region, one host reshape.  The contents of every unscoped buffer at each segment boundary are a fold from the launch
  memory (`Gen.W0` … `Gen.W5`).  Here the run is stated with a post-condition that keeps, beside the four argument
  arrays as launched, the two result buffers at what the last boundary holds for them, `Gen.W5`.  What those two
  contents are as functions of the arguments is read off the fold separately.
-/
import proofs.«101319_g29025388986544_feedfinal_290_5_alg».proof.Proof.Gen.KernelIdeal.Frame

set_option maxRecDepth 16384

noncomputable section

namespace Cert.KernelIdeal.ScaleRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; in its final memory the two result buffers
    hold the last boundary's contents and the four arguments are as launched.  The last thread state holds every unscoped
    buffer at `Gen.W5`, so the final memory agrees with `Gen.W5` on each of them; the two result buffers are unscoped,
    and at an argument's buffer the fold `Gen.W5` walks back to the launch memory, no segment writing it. -/
theorem run_results : θ_run defs (onTc (τ := τ) (main (F := F))) ⟨m, fun _ => 0, ρ⟩ (fun r => ∀ c : Dev nD,
      r.2.mem ((c.tc : Thread nD τ).loc main_v3) = W5 m ρ c (Proc.devRef .tc main_v3)
      ∧ r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v3 (by decide)),
       h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.ScaleRun

end
-- ==== Proof.ScaleRegion0.lean ====
/-
  Scaling region 0, whatever its arrays hold on entry (`V`): it leaves in its output array the stacked plane found in
  `main_v0` scaled by the exponential of the table found in `main_v1`.

  The grid has sixteen points.  At point `t` the pipeline stages rows `32 t … 32 t + 31` of the stack (block index
  `(t, 0, 0)`, block [32, 256, 256]) and the whole table (block index `(0, 0)`), the body multiplies the slab by the
  table's exponential repeated along the rows, and the result is written back to the same rows of the output.  So the
  block written at `t` is the restriction to those rows of ONE function of the two arrays, `scaledStack`; the sixteen
  blocks tile the 512 rows (row `r` is in block `r / 32`); hence the output array ends at `scaledStack`.
-/
import proofs.«101319_g29025388986544_feedfinal_290_5_alg».proof.Proof.Gen.KernelIdeal.Frame
import proofs.«101319_g29025388986544_feedfinal_290_5_alg».proof.Proof.ScaleSpec

set_option maxRecDepth 16384

noncomputable section

namespace Cert.KernelIdeal.ScaleRegion0

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.ScaleSpec

variable (V : (c : Dev nD) → (b : Ref sig .tc) → Buf (Elt Ideal) ((c : Thread nD τ).loc b))

/-- The three windows' block indices at every point, decided over the grid: the stack's windows (input and output) are at
    `(t, 0, 0)`, the table's at `(0, 0)`. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- WHAT POINT `t` WRITES BACK is block `t` of the scaled stack of the arrays as the region finds them.  An element
    `(r, h, w)` of the block sits in the stack at `(32 t + r, h, w)`, where the input block has the same element, and
    the table's block is the whole table, so its `(h, w)` is the array's. -/
theorem flushed_eq (c : Dev nD) (t : Fin cfg0.N) :
    (dat0 V c).flushed 2 t
      = ((cfg0.win 2).blk t).view.read (Elt Ideal) (scaledStack (V c main_v0) (V c main_v1)) := by
  show (cfg0.win 2).cut (grid0.coords t) ((dat0 V c).after 2 t) = _
  rw [after0_2]
  unfold out0_2
  rw [View.canon_unit_zero origin3]
  simp only [View.ld_unit_zero (S := S32x256x256) origin3, View.ld_unit_zero (S := S256x256) origin2]
  obtain ⟨e0, e1, e2, e3, e4, e5, e6, e7⟩ := block_indices t
  funext j
  show k0_pay1 (iblk0 V c 0 t) (iblk0 V c 1 t) j
    = scaledStack (V c main_v0) (V c main_v1) (((cfg0.win 2).blk t).view.emb j)
  refine (slab_scale_apply (iblk0 V c 0 t) (iblk0 V c 1 t) _ _ _ _ j).trans ?_
  refine congrArg₂ (fun a b : EReal => a * Ideal.exp b) ?_ ?_
  · show V c main_v0 (((cfg0.win 0).blk t).view.emb j) = V c main_v0 (((cfg0.win 2).blk t).view.emb j)
    refine congrArg (V c main_v0) ?_
    funext a; apply Fin.ext
    match a with
    | ⟨0, _⟩ => show win0_0.index t (0 : Fin 3) * 32 + 1 * (j 0).val = win0_2.index t (0 : Fin 3) * 32 + 1 * (j 0).val; omega
    | ⟨1, _⟩ => show win0_0.index t (1 : Fin 3) * 256 + 1 * (j 1).val = win0_2.index t (1 : Fin 3) * 256 + 1 * (j 1).val; omega
    | ⟨2, _⟩ => show win0_0.index t (2 : Fin 3) * 256 + 1 * (j 2).val = win0_2.index t (2 : Fin 3) * 256 + 1 * (j 2).val; omega
  · show V c main_v1 (((cfg0.win 1).blk t).view.emb (ix2 (j 1) (j 2)))
      = V c main_v1 (ix2 ((((cfg0.win 2).blk t).view.emb j) 1) ((((cfg0.win 2).blk t).view.emb j) 2))
    refine congrArg (V c main_v1) ?_
    funext a; apply Fin.ext
    match a with
    | ⟨0, _⟩ => show win0_1.index t (0 : Fin 2) * 256 + 1 * (j 1).val = win0_2.index t (1 : Fin 3) * 256 + 1 * (j 1).val; omega
    | ⟨1, _⟩ => show win0_1.index t (1 : Fin 2) * 256 + 1 * (j 2).val = win0_2.index t (2 : Fin 3) * 256 + 1 * (j 2).val; omega

/-- An index of the stack is in point `t`'s output block iff each coordinate is in the block's range on its axis. -/
theorem mem_block (t : Fin cfg0.N) (i : S512x256x256.Idx) :
    i ∈ ((cfg0.win 2).blk t).view.set
      ↔ ∀ a : Fin 3, win0_2.index t a * S32x256x256.size a ≤ (i a).val
          ∧ (i a).val < win0_2.index t a * S32x256x256.size a + S32x256x256.size a := by
  show i ∈ ((View.whole main_v2).slice (win0_2.rect t)).set ↔ _
  rw [View.set_slice_whole, Rect.mem_set_unit]
  exact Iff.rfl

/-- THE SIXTEEN BLOCKS TILE THE STACK: row `r` is written back at point `r / 32`. -/
theorem covered (i : S512x256x256.Idx) :
    ∃ t : Fin cfg0.N, (cfg0.win 2).flush t = true ∧ i ∈ ((cfg0.win 2).blk t).view.set := by
  have h0 : (i 0).val < 512 := (i 0).isLt
  have h1 : (i 1).val < 256 := (i 1).isLt
  have h2 : (i 2).val < 256 := (i 2).isLt
  have hN : grid0.N = 16 := N_0
  let t : Fin cfg0.N := ⟨(i 0).val / 32, by show (i 0).val / 32 < grid0.N; omega⟩
  have ht : t.val = (i 0).val / 32 := rfl
  obtain ⟨e0, e1, e2, e3, e4, e5, e6, e7⟩ := block_indices t
  refine ⟨t, flush0_2 t, ?_⟩
  rw [mem_block]
  intro a
  match a with
  | ⟨0, _⟩ => show win0_2.index t (0 : Fin 3) * 32 ≤ (i 0).val ∧ (i 0).val < win0_2.index t (0 : Fin 3) * 32 + 32; omega
  | ⟨1, _⟩ => show win0_2.index t (1 : Fin 3) * 256 ≤ (i 1).val ∧ (i 1).val < win0_2.index t (1 : Fin 3) * 256 + 256; omega
  | ⟨2, _⟩ => show win0_2.index t (2 : Fin 3) * 256 ≤ (i 2).val ∧ (i 2).val < win0_2.index t (2 : Fin 3) * 256 + 256; omega

/-- THE OUTPUT ARRAY after the region: the scaled stack of the two input arrays as the region finds them. -/
theorem output_eq (c : Dev nD) :
    (dat0 V c).arrAt 2 cfg0.N = scaledStack (V c main_v0) (V c main_v1) :=
  (dat0 V c).arrAt_eq_of_cover 2 (scaledStack (V c main_v0) (V c main_v1)) (fun t _ => flushed_eq V c t) covered

end Cert.KernelIdeal.ScaleRegion0

end
-- ==== Proof.ScaleRegion1.lean ====
/-
  Scaling region 1, whatever its arrays hold on entry (`V`): it leaves in its output array the stacked plane found in
  `main_v4` scaled by the exponential of the table found in `main_v5`.

  The grid has sixteen points.  At point `t` the pipeline stages rows `32 t … 32 t + 31` of the stack (block index
  `(t, 0, 0)`, block [32, 256, 256]) and the whole table (block index `(0, 0)`), the body multiplies the slab by the
  table's exponential repeated along the rows, and the result is written back to the same rows of the output.  So the
  block written at `t` is the restriction to those rows of ONE function of the two arrays, `scaledStack`; the sixteen
  blocks tile the 512 rows (row `r` is in block `r / 32`); hence the output array ends at `scaledStack`.
-/
import proofs.«101319_g29025388986544_feedfinal_290_5_alg».proof.Proof.Gen.KernelIdeal.Frame
import proofs.«101319_g29025388986544_feedfinal_290_5_alg».proof.Proof.ScaleSpec

set_option maxRecDepth 16384

noncomputable section

namespace Cert.KernelIdeal.ScaleRegion1

open Idealize.ShloMosaic Idealize.ShloMosaic.TcCoe Idealize.SL.Sem
open Idealize.ShloMosaic.Pipeline (Dat Cfg Window)
open Idealize.ShloMosaic.ValueIdx
open Cert.KernelIdeal Cert.KernelIdeal.Gen Cert.ScaleSpec

variable (V : (c : Dev nD) → (b : Ref sig .tc) → Buf (Elt Ideal) ((c : Thread nD τ).loc b))

/-- The three windows' block indices at every point, decided over the grid: the stack's windows (input and output) are at
    `(t, 0, 0)`, the table's at `(0, 0)`. -/
theorem block_indices : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- WHAT POINT `t` WRITES BACK is block `t` of the scaled stack of the arrays as the region finds them.  An element
    `(r, h, w)` of the block sits in the stack at `(32 t + r, h, w)`, where the input block has the same element, and
    the table's block is the whole table, so its `(h, w)` is the array's. -/
theorem flushed_eq (c : Dev nD) (t : Fin cfg1.N) :
    (dat1 V c).flushed 2 t
      = ((cfg1.win 2).blk t).view.read (Elt Ideal) (scaledStack (V c main_v4) (V c main_v5)) := by
  show (cfg1.win 2).cut (grid1.coords t) ((dat1 V c).after 2 t) = _
  rw [after1_2]
  unfold out1_2
  rw [View.canon_unit_zero origin3]
  simp only [View.ld_unit_zero (S := S32x256x256) origin3, View.ld_unit_zero (S := S256x256) origin2]
  obtain ⟨e0, e1, e2, e3, e4, e5, e6, e7⟩ := block_indices t
  funext j
  show k1_pay1 (iblk1 V c 0 t) (iblk1 V c 1 t) j
    = scaledStack (V c main_v4) (V c main_v5) (((cfg1.win 2).blk t).view.emb j)
  refine (slab_scale_apply (iblk1 V c 0 t) (iblk1 V c 1 t) _ _ _ _ j).trans ?_
  refine congrArg₂ (fun a b : EReal => a * Ideal.exp b) ?_ ?_
  · show V c main_v4 (((cfg1.win 0).blk t).view.emb j) = V c main_v4 (((cfg1.win 2).blk t).view.emb j)
    refine congrArg (V c main_v4) ?_
    funext a; apply Fin.ext
    match a with
    | ⟨0, _⟩ => show win1_0.index t (0 : Fin 3) * 32 + 1 * (j 0).val = win1_2.index t (0 : Fin 3) * 32 + 1 * (j 0).val; omega
    | ⟨1, _⟩ => show win1_0.index t (1 : Fin 3) * 256 + 1 * (j 1).val = win1_2.index t (1 : Fin 3) * 256 + 1 * (j 1).val; omega
    | ⟨2, _⟩ => show win1_0.index t (2 : Fin 3) * 256 + 1 * (j 2).val = win1_2.index t (2 : Fin 3) * 256 + 1 * (j 2).val; omega
  · show V c main_v5 (((cfg1.win 1).blk t).view.emb (ix2 (j 1) (j 2)))
      = V c main_v5 (ix2 ((((cfg1.win 2).blk t).view.emb j) 1) ((((cfg1.win 2).blk t).view.emb j) 2))
    refine congrArg (V c main_v5) ?_
    funext a; apply Fin.ext
    match a with
    | ⟨0, _⟩ => show win1_1.index t (0 : Fin 2) * 256 + 1 * (j 1).val = win1_2.index t (1 : Fin 3) * 256 + 1 * (j 1).val; omega
    | ⟨1, _⟩ => show win1_1.index t (1 : Fin 2) * 256 + 1 * (j 2).val = win1_2.index t (2 : Fin 3) * 256 + 1 * (j 2).val; omega

/-- An index of the stack is in point `t`'s output block iff each coordinate is in the block's range on its axis. -/
theorem mem_block (t : Fin cfg1.N) (i : S512x256x256.Idx) :
    i ∈ ((cfg1.win 2).blk t).view.set
      ↔ ∀ a : Fin 3, win1_2.index t a * S32x256x256.size a ≤ (i a).val
          ∧ (i a).val < win1_2.index t a * S32x256x256.size a + S32x256x256.size a := by
  show i ∈ ((View.whole main_v6).slice (win1_2.rect t)).set ↔ _
  rw [View.set_slice_whole, Rect.mem_set_unit]
  exact Iff.rfl

/-- THE SIXTEEN BLOCKS TILE THE STACK: row `r` is written back at point `r / 32`. -/
theorem covered (i : S512x256x256.Idx) :
    ∃ t : Fin cfg1.N, (cfg1.win 2).flush t = true ∧ i ∈ ((cfg1.win 2).blk t).view.set := by
  have h0 : (i 0).val < 512 := (i 0).isLt
  have h1 : (i 1).val < 256 := (i 1).isLt
  have h2 : (i 2).val < 256 := (i 2).isLt
  have hN : grid1.N = 16 := N_1
  let t : Fin cfg1.N := ⟨(i 0).val / 32, by show (i 0).val / 32 < grid1.N; omega⟩
  have ht : t.val = (i 0).val / 32 := rfl
  obtain ⟨e0, e1, e2, e3, e4, e5, e6, e7⟩ := block_indices t
  refine ⟨t, flush1_2 t, ?_⟩
  rw [mem_block]
  intro a
  match a with
  | ⟨0, _⟩ => show win1_2.index t (0 : Fin 3) * 32 ≤ (i 0).val ∧ (i 0).val < win1_2.index t (0 : Fin 3) * 32 + 32; omega
  | ⟨1, _⟩ => show win1_2.index t (1 : Fin 3) * 256 ≤ (i 1).val ∧ (i 1).val < win1_2.index t (1 : Fin 3) * 256 + 256; omega
  | ⟨2, _⟩ => show win1_2.index t (2 : Fin 3) * 256 ≤ (i 2).val ∧ (i 2).val < win1_2.index t (2 : Fin 3) * 256 + 256; omega

/-- THE OUTPUT ARRAY after the region: the scaled stack of the two input arrays as the region finds them. -/
theorem output_eq (c : Dev nD) :
    (dat1 V c).arrAt 2 cfg1.N = scaledStack (V c main_v4) (V c main_v5) :=
  (dat1 V c).arrAt_eq_of_cover 2 (scaledStack (V c main_v4) (V c main_v5)) (fun t _ => flushed_eq V c t) covered

end Cert.KernelIdeal.ScaleRegion1

end
-- ==== Proof.ScaleFold.lean ====
/-
  What the two result buffers hold at the end of the program, read back through the segments to the arguments.

  Real plane.  The last reshape does not touch the first result buffer, nor does the second region, so it holds what the
  middle stretch of reshapes left: the first region's output array, its leading axis split.  That output is the scaled
  stack of what the region found in its two input arrays, and those are the first stretch's reshapes of the real plane
  (leading axes merged) and of its flat table (as a matrix).  Merge, scale, split is the scaling of the plane.

  Imaginary plane.  The second result buffer holds the last reshape of the second region's output, the scaled stack of the
  middle stretch's reshapes of the imaginary plane and its table; those two arguments reach the middle stretch as
  launched, since neither the first stretch nor the first region writes them.
-/
import proofs.«101319_g29025388986544_feedfinal_290_5_alg».proof.Proof.Gen.KernelIdeal.Frame
import proofs.«101319_g29025388986544_feedfinal_290_5_alg».proof.Proof.ScaleSpec
import proofs.«101319_g29025388986544_feedfinal_290_5_alg».proof.Proof.ScaleRegion0
import proofs.«101319_g29025388986544_feedfinal_290_5_alg».proof.Proof.ScaleRegion1
import Idealize.ShloMosaic.Lib.StableHlo.Run

set_option maxRecDepth 16384

noncomputable section

namespace Cert.KernelIdeal.ScaleFold

open Idealize.ShloMosaic Idealize.ShloMosaic.TcCoe Idealize.SL.Sem Idealize.ShloMosaic.StableHlo
open Cert.KernelIdeal Cert.KernelIdeal.Gen Cert.ScaleSpec

variable (m : (ℓ : Loc nD τ sig) → Buf (Elt Ideal) ℓ) (ρ : Dev nD → PrngReg)

/-! ## What each region finds in its input arrays -/

/-- The first region finds the real plane with its leading axes merged. -/
theorem entry0_stack (c : Dev nD) :
    V1 m ρ c main_v0 = shapeCast S512x256x256 (m ((c : Thread nD τ).loc main_arg0)) shapeCasts_S32x16x256x256_S512x256x256 := by
  show StableHlo.after hostOps0 (W0 m ρ c) (Proc.devRef .tc main_v0) = _
  after_results
  rfl

/-- The first region finds the real plane's table as a matrix. -/
theorem entry0_table (c : Dev nD) :
    V1 m ρ c main_v1 = shapeCast S256x256 (m ((c : Thread nD τ).loc main_arg2)) shapeCasts_S65536_S256x256 := by
  show StableHlo.after hostOps0 (W0 m ρ c) (Proc.devRef .tc main_v1) = _
  after_results
  rfl

/-- An argument the first stretch and the first region do not write is, after both, as launched. -/
theorem kept_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results

theorem kept_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results

/-- The second region finds the imaginary plane with its leading axes merged. -/
theorem entry1_stack (c : Dev nD) :
    V3 m ρ c main_v4 = shapeCast S512x256x256 (m ((c : Thread nD τ).loc main_arg1)) shapeCasts_S32x16x256x256_S512x256x256 := by
  show StableHlo.after hostOps1 (W2 m ρ c) (Proc.devRef .tc main_v4) = _
  after_results
  rw [kept_arg1]
  rfl

/-- The second region finds the imaginary plane's table as a matrix. -/
theorem entry1_table (c : Dev nD) :
    V3 m ρ c main_v5 = shapeCast S256x256 (m ((c : Thread nD τ).loc main_arg3)) shapeCasts_S65536_S256x256 := by
  show StableHlo.after hostOps1 (W2 m ρ c) (Proc.devRef .tc main_v5) = _
  after_results
  rw [kept_arg3]
  rfl

/-! ## The two results -/

/-- THE FIRST RESULT: the real plane scaled by the exponential of its table. -/
theorem result_real (c : Dev nD) :
    W5 m ρ c (Proc.devRef .tc main_v3)
      = scaled (m ((c : Thread nD τ).loc main_arg0)) (m ((c : Thread nD τ).loc main_arg2)) := by
  have h54 : W5 m ρ c (Proc.devRef .tc main_v3) = W4 m ρ c (Proc.devRef .tc main_v3) := by
    show StableHlo.after hostOps2 (W4 m ρ c) (Proc.devRef .tc main_v3) = _
    after_results
  have h43 : W4 m ρ c (Proc.devRef .tc main_v3) = W3 m ρ c (Proc.devRef .tc main_v3) := W4_of_ne m ρ c main_v3 (by decide)
  have h32 : W3 m ρ c (Proc.devRef .tc main_v3)
      = shapeCast S32x16x256x256 (W2 m ρ c (Proc.devRef .tc main_v2)) shapeCasts_S512x256x256_S32x16x256x256 := by
    show StableHlo.after hostOps1 (W2 m ρ c) (Proc.devRef .tc main_v3) = _
    after_results
    rfl
  have h2 : W2 m ρ c (Proc.devRef .tc main_v2) = (dat0 (V1 m ρ) c).arrAt 2 cfg0.N := W2_arr m ρ c 2
  rw [h54, h43, h32, h2, ScaleRegion0.output_eq, entry0_stack, entry0_table]
  exact split_scaledStack_merge _ _ _ _ _

/-- THE SECOND RESULT: the imaginary plane scaled by the exponential of its table. -/
theorem result_imag (c : Dev nD) :
    W5 m ρ c (Proc.devRef .tc main_v7)
      = scaled (m ((c : Thread nD τ).loc main_arg1)) (m ((c : Thread nD τ).loc main_arg3)) := by
  have h54 : W5 m ρ c (Proc.devRef .tc main_v7)
      = shapeCast S32x16x256x256 (W4 m ρ c (Proc.devRef .tc main_v6)) shapeCasts_S512x256x256_S32x16x256x256 := by
    show StableHlo.after hostOps2 (W4 m ρ c) (Proc.devRef .tc main_v7) = _
    after_results
    rfl
  have h4 : W4 m ρ c (Proc.devRef .tc main_v6) = (dat1 (V3 m ρ) c).arrAt 2 cfg1.N := W4_arr m ρ c 2
  rw [h54, h4, ScaleRegion1.output_eq, entry1_stack, entry1_table]
  exact split_scaledStack_merge _ _ _ _ _

end Cert.KernelIdeal.ScaleFold

end
-- ==== Proof.ScaleRef.lean ====
/-
  The reference computes the scaled plane.

  Its operations, read one at a time at an index `(b, c, h, w)`: the product reads the plane there and the broadcast
  table there; the two broadcasts read the table's matrix at `(h, w)`, dropping `b` and `c`; the reshape reads the flat
  exponentials at `256 h + w`; the exponential is taken entry by entry.  Composed: `x (b, c, h, w) · exp (β (256 h + w))`.
-/
import proofs.«101319_g29025388986544_feedfinal_290_5_alg».proof.Proof.Gen.ReferenceIdeal.Read
import proofs.«101319_g29025388986544_feedfinal_290_5_alg».proof.Proof.ScaleSpec

noncomputable section

namespace Cert.ReferenceIdeal.ScaleRef

open Idealize.ShloMosaic Idealize.ShloMosaic.ValueIdx
open Cert.ReferenceIdeal Cert.ReferenceIdeal.Read Cert.ScaleSpec

/-- The stages' index functions, composed, land on the flat position of `(h, w)` (real plane's table). -/
theorem table_index_real (i : S32x16x256x256.Idx) :
    idx_main_v1 (idx_main_v4 (idx_main_v5 i)) = ix1 (flatPos (i 2) (i 3)) :=
  funext fun a => Fin.ext (by match a with | ⟨0, _⟩ => rfl)

/-- The same for the imaginary plane's table. -/
theorem table_index_imag (i : S32x16x256x256.Idx) :
    idx_main_v3 (idx_main_v7 (idx_main_v8 i)) = ix1 (flatPos (i 2) (i 3)) :=
  funext fun a => Fin.ext (by match a with | ⟨0, _⟩ => rfl)

/-- The reference's first result is the real plane scaled by its table. -/
theorem real_eq (x : FVec Ideal Plane .f32) (β : FVec Ideal Flat .f32) :
    val_main_v6 (F := Ideal) x β = scaled x β := by
  funext i
  rw [val_main_v6_apply, val_main_v5_apply, val_main_v4_apply, val_main_v1_apply, val_main_v0_apply, table_index_real]
  rfl

/-- The reference's second result is the imaginary plane scaled by its table. -/
theorem imag_eq (x : FVec Ideal Plane .f32) (β : FVec Ideal Flat .f32) :
    val_main_v9 (F := Ideal) x β = scaled x β := by
  funext i
  rw [val_main_v9_apply, val_main_v8_apply, val_main_v7_apply, val_main_v3_apply, val_main_v2_apply, table_index_imag]
  rfl

end Cert.ReferenceIdeal.ScaleRef

end
-- ==== Proof.lean ====
/-
  Both programs compute, for each of two planes `x` of shape [32, 16, 256, 256] and a flat table `β` of 65536 numbers,
      result (b, c, h, w) = x (b, c, h, w) · exp (β (256 · h + w)).

  The kernel merges the plane's two leading axes into a stack of 512 rows, views the table as a 256 × 256 matrix, scales
  the stack thirty-two rows at a time in one pipelined region per plane, and splits the leading axis again.  The
  reference takes the exponential of the flat table, views it as a matrix, broadcasts it over the two leading axes and
  multiplies.  At the ideal instance the kernel's vector exponential and the host's exponential are one function on the
  extended reals, and the two results are, index by index, the same product of the same two factors; no further law of
  arithmetic is used, so the finiteness of the inputs is never opened.

  The pieces: the kernel's run with its two result buffers named at the contents of the last segment boundary
  (ScaleRun); each region's output array as the scaled stack of what it finds in its inputs — the block written at a
  grid point is a restriction of that one function, and the sixteen blocks tile the stack (ScaleRegion0, ScaleRegion1);
  those contents read back through the host reshapes to the arguments, where merge–scale–split is the scaling of the
  plane because a reshape keeps row-major positions (ScaleFold over ScaleSpec); and the reference's operations read one
  at a time at an index (ScaleRef).  The ideal pass rewrote nothing, so the idealization claim is trivial.
-/
import proofs.«101319_g29025388986544_feedfinal_290_5_alg».proof.Defs
import proofs.«101319_g29025388986544_feedfinal_290_5_alg».proof.Proof.Gen.Kernel
import proofs.«101319_g29025388986544_feedfinal_290_5_alg».proof.Proof.Gen.Kernel.Skeleton
import proofs.«101319_g29025388986544_feedfinal_290_5_alg».proof.Proof.Gen.Kernel.Launch
import proofs.«101319_g29025388986544_feedfinal_290_5_alg».proof.Proof.Gen.Kernel.Points
import proofs.«101319_g29025388986544_feedfinal_290_5_alg».proof.Proof.Gen.Kernel.Frame
import proofs.«101319_g29025388986544_feedfinal_290_5_alg».proof.Proof.Gen.KernelIdeal
import proofs.«101319_g29025388986544_feedfinal_290_5_alg».proof.Proof.Gen.KernelIdeal.Skeleton
import proofs.«101319_g29025388986544_feedfinal_290_5_alg».proof.Proof.Gen.KernelIdeal.Launch
import proofs.«101319_g29025388986544_feedfinal_290_5_alg».proof.Proof.Gen.KernelIdeal.Points
import proofs.«101319_g29025388986544_feedfinal_290_5_alg».proof.Proof.Gen.KernelIdeal.Frame
import proofs.«101319_g29025388986544_feedfinal_290_5_alg».proof.Proof.Gen.ReferenceIdeal
import proofs.«101319_g29025388986544_feedfinal_290_5_alg».proof.Proof.Gen.Pre_finite_inputs
import proofs.«101319_g29025388986544_feedfinal_290_5_alg».proof.Proof.Gen.ReferenceIdeal.Run
import proofs.«101319_g29025388986544_feedfinal_290_5_alg».proof.Proof.Gen.ReferenceIdeal.Read
import proofs.«101319_g29025388986544_feedfinal_290_5_alg».proof.Proof.ScaleSpec
import proofs.«101319_g29025388986544_feedfinal_290_5_alg».proof.Proof.ScaleRun
import proofs.«101319_g29025388986544_feedfinal_290_5_alg».proof.Proof.ScaleFold
import proofs.«101319_g29025388986544_feedfinal_290_5_alg».proof.Proof.ScaleRef
import Idealize.ShloMosaic.Adequacy
import Idealize.ShloMosaic.Init

noncomputable section

namespace Cert.Proof

open Idealize.ShloMosaic Idealize.ShloMosaic.TcCoe Idealize.SL.Sem Cert.ScaleSpec

/-- The word-level kernel terminates without a fault and leaves its arguments as launched. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- So does the reference: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the four arguments both programs end with each plane scaled by the exponential of its
    table: the kernel by its run and the fold read back to the arguments, the reference by its run read at an index;
    the agreement of the arguments makes the two terms one. -/
theorem algebraic : Cert.algebraic_KernelIdeal_ReferenceIdeal := by
  intro m ρ m' ρ' _ hagree
  refine ⟨fun c => scaled (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    fun c => scaled (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.ScaleFold.result_real m ρ c),
        (h c).2.1.trans (Cert.KernelIdeal.ScaleFold.result_imag m ρ c), (h c).2.2⟩)
      (Cert.KernelIdeal.ScaleRun.run_results (F := Ideal) m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v6_eq, Cert.ReferenceIdeal.ScaleRef.real_eq,
        (hagree c).1, (hagree c).2.2.1]
    · rw [(h c).2.1, Cert.ReferenceIdeal.Read.val_main_v9_eq, Cert.ReferenceIdeal.ScaleRef.imag_eq,
        (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
